-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x64 : Shape := ⟨4, ![16, 512, 512, 64]⟩
abbrev S_ : Shape := ⟨0, ![]⟩

class Facts : Prop where
  bcast_S_S16x512x512x64 : S_.BroadcastsInDim S16x512x512x64 (![] : Fin 0 → Fin S16x512x512x64.rank)
  reducesTo_S16x512x512x64_S_d0_1_2_3 : S16x512x512x64.ReducesTo [0, 1, 2, 3] S_
  h_S_ : 0 < S_.numel

variable [Facts]

def fn {F : FTy → Type} [FloatOps F] (main_arg0 : FVec F S16x512x512x64 .f32) : IVec S_ 1 :=
  let main_v0 : FVec F S16x512x512x64 .f32 := Host.absf main_arg0
  let main_cst : FVec F S_ .f32 := constant S_ .f32 0x7F800000#32
  let main_v1 : FVec F S16x512x512x64 .f32 := broadcastInDim S16x512x512x64 ![] bcast_S_S16x512x512x64 main_cst
  let main_v2 : IVec S16x512x512x64 1 := cmpf .olt main_v0 main_v1
  let main_c : IVec S_ 1 := constantI S_ 1 1#1
  let main_v3 : IVec S_ 1 := (fun x v => Host.reduce IntOp.andi x v reducesTo_S16x512x512x64_S_d0_1_2_3 h_S_) main_v2 main_c
  main_v3
-- ==== Kernel.lean ====
abbrev S16x512x512x64 : Shape := ⟨4, ![16, 512, 512, 64]⟩
abbrev S16x128 : Shape := ⟨2, ![16, 128]⟩
abbrev S8x8x512x64 : Shape := ⟨4, ![8, 8, 512, 64]⟩
abbrev S8x128 : Shape := ⟨2, ![8, 128]⟩
abbrev S8x64 : Shape := ⟨2, ![8, 64]⟩
abbrev S8x8x64 : Shape := ⟨3, ![8, 8, 64]⟩
abbrev S8x512x64 : Shape := ⟨3, ![8, 512, 64]⟩

abbrev nBuf : Space → Nat
  | .hbm => 2
  | .vmem => 6
  | .smem => 0
  | _ => 0

abbrev bufTy : (tb : Table) → Fin (tcTables nBuf tb) → BufTy
  | .hbm, ⟨0, _⟩ => ⟨S16x512x512x64, .f32⟩
  | .hbm, ⟨1, _⟩ => ⟨S16x128, .f32⟩
  | .local _ .vmem, ⟨0, _⟩ => ⟨S8x8x512x64, .f32⟩
  | .local _ .vmem, ⟨1, _⟩ => ⟨S8x8x512x64, .f32⟩
  | .local _ .vmem, ⟨2, _⟩ => ⟨S8x128, .f32⟩
  | .local _ .vmem, ⟨3, _⟩ => ⟨S8x128, .f32⟩
  | .local _ .vmem, ⟨4, _⟩ => ⟨S8x64, .f32⟩
  | .local _ .vmem, ⟨5, _⟩ => ⟨S8x64, .f32⟩
  | _, _ => ⟨S16x512x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_16 : BitVec 32 := 0#32
  let v28 : BitVec 1 := Scalar.cmpi .ne v27 c0_i32_16
  v28

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  iota_S8x8x512x64_d1_w32 : S8x8x512x64.Iotas .tc 32 [1]
  iota_S8x8x512x64_d2_w32 : S8x8x512x64.Iotas .tc 32 [2]
  inb_S8x8x512x64_S8x8x512x64_0_0_0_0 : ∀ a, (![0, 0, 0, 0] : Fin 4 → Nat) a + S8x8x512x64.size a ≤ S8x8x512x64.size a
  h_S8x8x512x64 : 0 < S8x8x512x64.numel
  reduces_S8x8x512x64_S8x8x64 : S8x8x512x64.Reduces [2] S8x8x64
  reduces_S8x8x64_S8x64 : S8x8x64.Reduces [1] S8x64
  reduces_S8x8x512x64_S8x512x64 : S8x8x512x64.Reduces [1] S8x512x64
  reduces_S8x512x64_S8x64 : S8x512x64.Reduces [1] S8x64
  inb_S8x128_S8x64_0_0 : ∀ a, (![0, 0] : Fin 2 → Nat) a + S8x64.size a ≤ S8x128.size a
  inb_S8x128_S8x64_0_64 : ∀ a, (![0, 64] : Fin 2 → Nat) a + S8x64.size a ≤ S8x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x512x64.size a ≤ S16x512x512x64.size a
  hwx0_0 : ∀ i : grid0.Coords, EltTy.bits .f32 = 32 ∨ (Rect.block (s := S16x512x512x64) S8x8x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

abbrev win0_0 : Pipeline.Window sig grid0 :=
  Pipeline.Window.ofSpec (Memref.whole main_arg0) S8x8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x512x512x64 : Shape := ⟨4, ![16, 512, 512, 64]⟩
abbrev S512x512 : Shape := ⟨2, ![512, 512]⟩
abbrev S_ : Shape := ⟨0, ![]⟩
abbrev S16x64 : Shape := ⟨2, ![16, 64]⟩
abbrev S16x128 : Shape := ⟨2, ![16, 128]⟩

abbrev nBuf : Space → Nat
  | .hbm => 14
  | .vmem => 0
  | .smem => 0
  | _ => 0

abbrev bufTy : (tb : Table) → Fin (tcTables nBuf tb) → BufTy
  | .hbm, ⟨0, _⟩ => ⟨S16x512x512x64, .f32⟩
  | .hbm, ⟨1, _⟩ => ⟨S512x512, .i32⟩
  | .hbm, ⟨2, _⟩ => ⟨S512x512, .i32⟩
  | .hbm, ⟨3, _⟩ => ⟨S512x512, .i1⟩
  | .hbm, ⟨4, _⟩ => ⟨S16x512x512x64, .i1⟩
  | .hbm, ⟨5, _⟩ => ⟨S_, .f32⟩
  | .hbm, ⟨6, _⟩ => ⟨S16x512x512x64, .f32⟩
  | .hbm, ⟨7, _⟩ => ⟨S16x512x512x64, .f32⟩
  | .hbm, ⟨8, _⟩ => ⟨S_, .f32⟩
  | .hbm, ⟨9, _⟩ => ⟨S16x64, .f32⟩
  | .hbm, ⟨10, _⟩ => ⟨S_, .f32⟩
  | .hbm, ⟨11, _⟩ => ⟨S16x64, .f32⟩
  | .hbm, ⟨12, _⟩ => ⟨S16x64, .f32⟩
  | .hbm, ⟨13, _⟩ => ⟨S16x128, .f32⟩
  | _, _ => ⟨S16x512x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S512x512_S16x512x512x64_1_2 : S512x512.BroadcastsInDim S16x512x512x64 (![1, 2] : Fin 2 → Fin S16x512x512x64.rank)
  bcast_S_S16x512x512x64 : S_.BroadcastsInDim S16x512x512x64 (![] : Fin 0 → Fin S16x512x512x64.rank)
  reducesTo_S16x512x512x64_S16x64_d1_2 : S16x512x512x64.ReducesTo [1, 2] S16x64
  h_S_ : 0 < S_.numel
  concatenates_S16x64_S16x64_S16x128_d1 : Shape.Concatenates [S16x64, S16x64] S16x128 1

variable [Facts₀]

class Facts : Prop extends Facts₀ where

variable [Facts]
-- ==== Proof.Steps.lean ====
/-
  What one grid step leaves behind, case by case, as the step's arithmetic applied to what the step found.

  The kernel keeps two running sums in scratch memory: the diagonal sum and the total sum, each an [8, 64] array
  (8 batch rows of the block, 64 channels). A step adds to each the contribution of its 8 rows of the input block.
  At the first step of a batch block the running sums are first set to zero; at the last step the output block [8, 128] is
  written: its left half is the diagonal sum, its right half the total sum less the diagonal sum.
  Here, for any float values: what each running sum holds after a step is the step's update applied to what it held
  before (to the zero fill at the first step), and the output block of the last step is read at coordinates in the
  left and in the right half.
-/
import proofs.«113399_j74053826118101_2_alg».proof.Proof.Gen.KernelIdeal.Frame
import Idealize.ShloMosaic.Lib.Pipeline.Value
import Idealize.ShloMosaic.Lib.ValueIdx
import Idealize.ShloMosaic.Lib.Tactic
import Idealize.ShloMosaic.Lib.WritesUnit

noncomputable section

namespace Cert.KernelIdeal.Steps

open Cert.KernelIdeal Cert.KernelIdeal.Gen
open Idealize.ShloMosaic Idealize.ShloMosaic.TcCoe Idealize.ShloMosaic.ValueIdx Idealize.SL.Sem

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The first step of a batch block: the running sums start from the zero fill -/

/-- After the first step the diagonal sum is the step's update of the zero fill. -/
theorem diag_first (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : cond0_0 i) (hc1 : ¬cond0_1 i)
    (x0 : Vec F S8x8x512x64 .f32) :
    sout0_A_0 c i arg2 harg2 arg3 harg3 arg4 harg4 arg5 harg5 hc0 hc1 x0 = k0_pay3 i x0 (k0_pay1 (F := F)) := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S8x64) hz2]
  simp only [View.readAt_eq_ld, harg2.read_unread, View.ld_unit_zero (S := S8x8x512x64) hz4,
    View.readCov_unit_zero (S := S8x64) _ hz2]

/-- After the first step the total sum is the step's update of the zero fill. -/
theorem total_first (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : cond0_0 i) (hc1 : ¬cond0_1 i)
    (x0 : Vec F S8x8x512x64 .f32) :
    sout0_A_1 c i arg2 harg2 arg3 harg3 arg4 harg4 arg5 harg5 hc0 hc1 x0 = k0_pay4 x0 (k0_pay2 (F := F)) := by
  unfold sout0_A_1
  rw [View.read_writes_eq_canon _ _ _ (scover0_A_1 c i arg2 harg2 arg3 harg3 arg4 harg4 arg5 harg5 hc0 hc1 x0)]
  unfold kernelRun0_A
  dsimp only
  sl_unfold_words
  rw [View.canon_cons_unit_zero (S := S8x64) hz2]
  simp only [View.readAt_eq_ld, harg2.read_unread, View.ld_unit_zero (S := S8x8x512x64) hz4,
    View.readCov_unit_zero (S := S8x64) _ hz2]

/-! ## A middle step: each running sum is updated from what the step before left -/

theorem diag_mid (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : ¬cond0_0 i) (hc1 : ¬cond0_1 i)
    (x0 : Vec F S8x8x512x64 .f32) (xs0 xs1 : Vec F S8x64 .f32) :
    sout0_B_0 c i arg2 harg2 arg3 harg3 arg4 harg4 arg5 harg5 hc0 hc1 x0 xs0 xs1 = k0_pay3 i x0 xs0 := by
  unfold sout0_B_0
  rw [View.read_writes_eq_canon _ _ _ (scover0_B_0 c i arg2 harg2 arg3 harg3 arg4 harg4 arg5 harg5 hc0 hc1 x0 xs0 xs1)]
  unfold kernelRun0_B
  dsimp only
  sl_unfold_words
  rw [View.canon_unit_zero (S := S8x64) hz2]
  simp only [View.readAt_eq_ld, harg2.read_unread, harg4.read_unread, View.ld_unit_zero (S := S8x8x512x64) hz4,
    View.ld_unit_zero (S := S8x64) hz2]

theorem total_mid (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : ¬cond0_0 i) (hc1 : ¬cond0_1 i)
    (x0 : Vec F S8x8x512x64 .f32) (xs0 xs1 : Vec F S8x64 .f32) :
    sout0_B_1 c i arg2 harg2 arg3 harg3 arg4 harg4 arg5 harg5 hc0 hc1 x0 xs0 xs1 = k0_pay4 x0 xs1 := by
  unfold sout0_B_1
  rw [View.read_writes_eq_canon _ _ _ (scover0_B_1 c i arg2 harg2 arg3 harg3 arg4 harg4 arg5 harg5 hc0 hc1 x0 xs0 xs1)]
  unfold kernelRun0_B
  dsimp only
  sl_unfold_words
  rw [View.canon_unit_zero (S := S8x64) hz2]
  simp only [View.readAt_eq_ld, harg2.read_unread, harg5.read_unread, View.ld_unit_zero (S := S8x8x512x64) hz4,
    View.ld_unit_zero (S := S8x64) hz2]

/-! ## The last step: the same updates, and the output block -/

theorem diag_last (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : ¬cond0_0 i) (hc1 : cond0_1 i)
    (x0 : Vec F S8x8x512x64 .f32) (xs0 xs1 : Vec F S8x64 .f32) :
    sout0_C_0 c i arg2 harg2 arg3 harg3 arg4 harg4 arg5 harg5 hc0 hc1 x0 xs0 xs1 = k0_pay3 i x0 xs0 := by
  unfold sout0_C_0
  rw [View.read_writes_eq_canon _ _ _ (scover0_C_0 c i arg2 harg2 arg3 harg3 arg4 harg4 arg5 harg5 hc0 hc1 x0 xs0 xs1)]
  unfold kernelRun0_C
  dsimp only
  sl_unfold_words
  rw [View.canon_unit_zero (S := S8x64) hz2]
  simp only [View.readAt_eq_ld, harg2.read_unread, harg4.read_unread, View.ld_unit_zero (S := S8x8x512x64) hz4,
    View.ld_unit_zero (S := S8x64) hz2]

theorem total_last (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : ¬cond0_0 i) (hc1 : cond0_1 i)
    (x0 : Vec F S8x8x512x64 .f32) (xs0 xs1 : Vec F S8x64 .f32) :
    sout0_C_1 c i arg2 harg2 arg3 harg3 arg4 harg4 arg5 harg5 hc0 hc1 x0 xs0 xs1 = k0_pay4 x0 xs1 := by
  unfold sout0_C_1
  rw [View.read_writes_eq_canon _ _ _ (scover0_C_1 c i arg2 harg2 arg3 harg3 arg4 harg4 arg5 harg5 hc0 hc1 x0 xs0 xs1)]
  unfold kernelRun0_C
  dsimp only
  sl_unfold_words
  rw [View.canon_unit_zero (S := S8x64) hz2]
  simp only [View.readAt_eq_ld, harg2.read_unread, harg5.read_unread, View.ld_unit_zero (S := S8x8x512x64) hz4,
    View.ld_unit_zero (S := S8x64) hz2]

/-- The output block of the last step, as the two stores that fill it (the later one first): columns 64..127 hold the
    total sum less the diagonal sum, columns 0..63 the diagonal sum, both after this step's update. -/
theorem out_last_eq (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : ¬cond0_0 i) (hc1 : cond0_1 i)
    (x0 : Vec F S8x8x512x64 .f32) (xs0 xs1 : Vec F S8x64 .f32) :
    out0_C_1 c i arg2 harg2 arg3 harg3 arg4 harg4 arg5 harg5 hc0 hc1 x0 xs0 xs1
      = VO0_1.read (Elt F) (VO0_1.writes (Elt F) VO0_1.junk
          [⟨Rect.unit ![0, 64] S8x64.size inb_S8x128_S8x64_0_64, k0_pay5 (k0_pay3 i x0 xs0) (k0_pay4 x0 xs1)⟩,
           ⟨Rect.unit ![0, 0] S8x64.size inb_S8x128_S8x64_0_0, k0_pay3 i x0 xs0⟩]) := by
  unfold out0_C_1
  unfold kernelRun0_C
  dsimp only
  sl_unfold_words
  simp only [View.readAt_eq_ld, harg2.read_unread, harg4.read_unread, harg5.read_unread,
    View.ld_unit_zero (S := S8x8x512x64) hz4, View.ld_unit_zero (S := S8x64) hz2, View.readCov_unit_zero (S := S8x64) _ hz2]

/-- The output block of the last step at a column of its left half: the diagonal sum. -/
theorem out_last_left (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : ¬cond0_0 i) (hc1 : cond0_1 i)
    (x0 : Vec F S8x8x512x64 .f32) (xs0 xs1 : Vec F S8x64 .f32) (b : Fin 8) (k : Fin 128) (k' : Fin 64) (hk : k.val = k'.val) :
    out0_C_1 c i arg2 harg2 arg3 harg3 arg4 harg4 arg5 harg5 hc0 hc1 x0 xs0 xs1 (ix2 b k) = k0_pay3 i x0 xs0 (ix2 b k') := by
  rw [out_last_eq]
  refine (View.read_writes_cons_unit_of_not_mem VO0_1 VO0_1.junk inb_S8x128_S8x64_0_64 _ _ (ix2 b k) rfl (1 : Fin 2)
    (Or.inl ?_)).trans ?_
  · show k.val < 64
    have := k'.isLt; omega
  · refine View.read_writes_cons_unit_of_mem VO0_1 VO0_1.junk inb_S8x128_S8x64_0_0 _ _ (ix2 b k) (ix2 b k') rfl (fun a => ?_)
    match a with
    | ⟨0, _⟩ => show b.val = 0 + b.val; omega
    | ⟨1, _⟩ => show k.val = 0 + k'.val; omega

/-- The output block of the last step at a column of its right half: the total sum less the diagonal sum. -/
theorem out_last_right (c : Dev nD) (i : grid0.Coords) (arg2 : Memref sig .tc .vmem S8x8x512x64 .f32) (harg2 : arg2.IsWhole)
    (arg3 : Memref sig .tc .vmem S8x128 .f32) (harg3 : arg3.IsWhole) (arg4 : Memref sig .tc .vmem S8x64 .f32) (harg4 : arg4.IsWhole)
    (arg5 : Memref sig .tc .vmem S8x64 .f32) (harg5 : arg5.IsWhole) (hc0 : ¬cond0_0 i) (hc1 : cond0_1 i)
    (x0 : Vec F S8x8x512x64 .f32) (xs0 xs1 : Vec F S8x64 .f32) (b : Fin 8) (k : Fin 128) (k' : Fin 64) (hk : k.val = 64 + k'.val) :
    out0_C_1 c i arg2 harg2 arg3 harg3 arg4 harg4 arg5 harg5 hc0 hc1 x0 xs0 xs1 (ix2 b k) = k0_pay5 (k0_pay3 i x0 xs0) (k0_pay4 x0 xs1) (ix2 b k') := by
  rw [out_last_eq]
  refine View.read_writes_cons_unit_of_mem VO0_1 VO0_1.junk inb_S8x128_S8x64_0_64 _ _ (ix2 b k) (ix2 b k') rfl (fun a => ?_)
  match a with
  | ⟨0, _⟩ => show b.val = 0 + b.val; omega
  | ⟨1, _⟩ => show k.val = 64 + k'.val; exact hk

end Cert.KernelIdeal.Steps

end
-- ==== Proof.Carried.lean ====
/-
  The running sums point by point.

  What the two running sums hold after a grid point, in terms of the step's update: at the first step of a batch
  block the update of the zero fill, at every later step the update of what the point before left. At the last step
  of a batch block the output block holds the diagonal sum in its left half and the total sum less the diagonal sum
  in its right half. For any float values.
-/
import proofs.«113399_j74053826118101_2_alg».proof.Proof.Gen.KernelIdeal.Frame
import proofs.«113399_j74053826118101_2_alg».proof.Proof.Steps
import Idealize.ShloMosaic.Lib.ValueIdx

noncomputable section

namespace Cert.KernelIdeal.Carried

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- At the first step of a batch block the diagonal sum is the update of the zero fill. -/
theorem diag_at_first (c : Dev nD) (t : Fin cfg0.N) (h0 : t.val % 64 = 0) :
    (outsAt0 m c t.val t.isLt).2.1 = k0_pay3 (grid0.coords t) (iblk m c 0 t) (k0_pay1 (F := F)) := by
  have h1 : ¬t.val % 64 = 63 := by omega
  rw [outsAt0_A m c t h0 h1]
  exact Steps.diag_first c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)

/-- At the first step of a batch block the total sum is the update of the zero fill. -/
theorem total_at_first (c : Dev nD) (t : Fin cfg0.N) (h0 : t.val % 64 = 0) :
    (outsAt0 m c t.val t.isLt).2.2 = k0_pay4 (iblk m c 0 t) (k0_pay2 (F := F)) := by
  have h1 : ¬t.val % 64 = 63 := by omega
  rw [outsAt0_A m c t h0 h1]
  exact Steps.total_first c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)

/-- At a later step the diagonal sum is the update of what the point before left. -/
theorem diag_at_later (c : Dev nD) (t : Fin cfg0.N) (h0 : ¬t.val % 64 = 0) :
    (outsAt0 m c t.val t.isLt).2.1 = k0_pay3 (grid0.coords t) (iblk m c 0 t) (outsAt0 m c (t.val - 1) (Nat.lt_of_le_of_lt (Nat.sub_le _ _) t.isLt)).2.1 := by
  by_cases h1 : t.val % 64 = 63
  · rw [outsAt0_C m c t h0 h1]
    exact Steps.diag_last c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    exact Steps.diag_mid c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2

/-- At a later step the total sum is the update of what the point before left. -/
theorem total_at_later (c : Dev nD) (t : Fin cfg0.N) (h0 : ¬t.val % 64 = 0) :
    (outsAt0 m c t.val t.isLt).2.2 = k0_pay4 (iblk m c 0 t) (outsAt0 m c (t.val - 1) (Nat.lt_of_le_of_lt (Nat.sub_le _ _) t.isLt)).2.2 := by
  by_cases h1 : t.val % 64 = 63
  · rw [outsAt0_C m c t h0 h1]
    exact Steps.total_last c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    exact Steps.total_mid c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2

/-- At the last step of a batch block the output block's left half is the diagonal sum. -/
theorem out_at_last_left (c : Dev nD) (t : Fin cfg0.N) (h1 : t.val % 64 = 63) (b : Fin 8) (k : Fin 128) (k' : Fin 64)
    (hk : k.val = k'.val) :
    (outsAt0 m c t.val t.isLt).1 (ix2 b k) = (outsAt0 m c t.val t.isLt).2.1 (ix2 b k') := by
  have h0 : ¬t.val % 64 = 0 := by omega
  rw [outsAt0_C m c t h0 h1]
  exact (Steps.out_last_left c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2 b k k' hk).trans
    (congrFun (Steps.diag_last c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2).symm (ix2 b k'))

/-- At the last step of a batch block the output block's right half is the total sum less the diagonal sum. -/
theorem out_at_last_right (c : Dev nD) (t : Fin cfg0.N) (h1 : t.val % 64 = 63) (b : Fin 8) (k : Fin 128) (k' : Fin 64)
    (hk : k.val = 64 + k'.val) :
    (outsAt0 m c t.val t.isLt).1 (ix2 b k)
      = k0_pay5 (outsAt0 m c t.val t.isLt).2.1 (outsAt0 m c t.val t.isLt).2.2 (ix2 b k') := by
  have h0 : ¬t.val % 64 = 0 := by omega
  rw [outsAt0_C m c t h0 h1]
  exact (Steps.out_last_right c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2 b k k' hk).trans
    (congrFun (congrArg₂ k0_pay5 (Steps.diag_last c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2).symm (Steps.total_last c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2).symm) (ix2 b k'))

end Cert.KernelIdeal.Carried

end
-- ==== Proof.LibMid.lean ====
/-
  Layout operations around a middle axis, read at coordinates: an `[a, b]` array cast to `[a, 1, b]`; an `[a, 1, b]`
  array broadcast over a middle axis of `n`; a `[1, n, b]` array broadcast over a leading axis of `a`; and the sum
  over the middle axis of an `[a, n, b]` array at the extended reals.
-/
import Idealize.ShloMosaic.PureOps.Ideal.Laws
import Idealize.ShloMosaic.Lib.ValueIdx
import Idealize.ShloMosaic.Lib.Pipeline.Value

noncomputable section

namespace Cert.LibMid

open Idealize.ShloMosaic Idealize.ShloMosaic.ValueIdx
open scoped BigOperators

variable {α : Type} {a n b : ℕ}

/-- An `[a, b]` array cast to `[a, 1, b]` reads, at `(p, u, q)`, the operand at `(p, q)`. -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, n, b]` reads, at `(p, c, q)`, the operand at `(p, 0, q)`. -/
theorem broadcastTo_a1b_anb_apply (x : (⟨3, ![a, 1, b]⟩ : Shape).Idx → α) (h : (⟨3, ![a, 1, b]⟩ : Shape).Broadcasts ⟨3, ![a, n, b]⟩)
    (p : Fin a) (c : Fin n) (q : Fin b) : broadcastTo ⟨3, ![a, n, b]⟩ x h (ix3 p c q) = x (ix3 p (0 : Fin 1) q) := by
  refine broadcastTo_apply x h (ix3 p c q) (ix3 p (0 : Fin 1) q) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]
  | ⟨2, _⟩ =>
    show q.val = if b = 1 then 0 else q.val
    split
    · have := q.isLt; omega
    · rfl

/-- A `[1, n, b]` array broadcast to `[a, n, b]` reads, at `(p, c, q)`, the operand at `(0, c, q)`. -/
theorem broadcastTo_1nb_anb_apply (x : (⟨3, ![1, n, b]⟩ : Shape).Idx → α) (h : (⟨3, ![1, n, b]⟩ : Shape).Broadcasts ⟨3, ![a, n, b]⟩)
    (p : Fin a) (c : Fin n) (q : Fin b) : broadcastTo ⟨3, ![a, n, b]⟩ x h (ix3 p c q) = x (ix3 (0 : Fin 1) c q) := by
  refine broadcastTo_apply x h (ix3 p c q) (ix3 (0 : Fin 1) c q) fun ax => ?_
  match ax with
  | ⟨0, _⟩ => show 0 = if (1 : ℕ) = 1 then 0 else p.val; rw [if_pos rfl]
  | ⟨1, _⟩ =>
    show c.val = if n = 1 then 0 else c.val
    split
    · have := c.isLt; omega
    · rfl
  | ⟨2, _⟩ =>
    show q.val = if b = 1 then 0 else q.val
    split
    · have := q.isLt; omega
    · rfl

/-- The sum over the middle axis of an `[a, n, b]` array, at the extended reals and at `(p, q)`: the sum over `k` of
    the array at `(p, k, q)`. -/
theorem multiReduction_add_mid_apply {φ : FTy} (src : FVec Ideal ⟨3, ![a, n, b]⟩ φ) (acc : BitVec φ.bits)
    (h : (⟨3, ![a, n, b]⟩ : Shape).Reduces [(1 : Fin 3)] ⟨2, ![a, b]⟩) (hφ : FKind.Formats φ) (hacc : acc = FKind.add.neutral φ hφ)
    (p : Fin a) (q : Fin b) :
    multiReduction .add [(1 : Fin 3)] ⟨2, ![a, b]⟩ src acc h hφ hacc (ix2 p q) = ∑ k : Fin n, src (ix3 p k q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibMid

end
-- ==== Proof.LibMidPlanes.lean ====
/-
  The two middle axes of a rank-4 array [n0, n1, n2, n3], read at coordinates, for any extents.

  The indices that share their outer coordinates (p, q) are exactly the pairs (u, v) of middle coordinates, so a sum
  over those indices is the double sum over u and v. From that: the host's sum over axes 1 and 2 read at (p, q) at the
  extended reals is the starting value plus that double sum. A kernel's sum over axis 1 alone read at (p, v, q) is
  the sum over u of the entries (p, u, v, q); its sum over axis 2 alone read at (p, u, q) is the sum over v.
-/
import Idealize.ShloMosaic.PureOps.Ideal.Laws
import Idealize.ShloMosaic.Lib.ValueIdx

noncomputable section

namespace Cert.LibMidPlanes

open Idealize.ShloMosaic Idealize.ShloMosaic.ValueIdx
open scoped BigOperators

variable {n0 n1 n2 n3 : ℕ}

/-- A sum over the indices of [n0, n1, n2, n3] that a map keeping the outer coordinates sends to (p, q) is the double
    sum over the two middle coordinates. -/
theorem sum_filter_outer {M : Type*} [AddCommMonoid M]
    (drop : (⟨4, ![n0, n1, n2, n3]⟩ : Shape).Idx → (⟨2, ![n0, n3]⟩ : Shape).Idx)
    (hd0 : ∀ i, (drop i 0).val = (i 0).val) (hd1 : ∀ i, (drop i 1).val = (i 3).val)
    (x : (⟨4, ![n0, n1, n2, n3]⟩ : Shape).Idx → M) (p : Fin n0) (q : Fin n3) :
    ∑ i ∈ Finset.univ.filter (fun i => drop i = ix2 p q), x i = ∑ u : Fin n1, ∑ v : Fin n2, x (ix4 p u v q) := by
  refine Eq.trans ?_ (Fintype.sum_prod_type' (fun (u : Fin n1) (v : Fin n2) => x (ix4 p u v q)))
  have back : ∀ i : (⟨4, ![n0, n1, n2, n3]⟩ : Shape).Idx, drop i = ix2 p q → ix4 p (i 1) (i 2) q = i := by
    intro i hi
    have h0 : (i 0).val = p.val := (hd0 i).symm.trans (congrArg (fun j => (j 0).val) hi)
    have h3 : (i 3).val = q.val := (hd1 i).symm.trans (congrArg (fun j => (j 1).val) hi)
    funext a
    match a with
    | ⟨0, _⟩ => exact Fin.ext h0.symm
    | ⟨1, _⟩ => rfl
    | ⟨2, _⟩ => rfl
    | ⟨3, _⟩ => exact Fin.ext h3.symm
  refine Finset.sum_nbij' (fun i => ((i 1 : Fin n1), (i 2 : Fin n2))) (fun uv => ix4 p uv.1 uv.2 q) ?_ ?_ ?_ ?_ ?_
  · intro i _; exact Finset.mem_univ _
  · intro uv _
    rw [Finset.mem_filter]
    refine ⟨Finset.mem_univ _, funext fun a => ?_⟩
    match a with
    | ⟨0, _⟩ => exact Fin.ext (hd0 _)
    | ⟨1, _⟩ => exact Fin.ext (hd1 _)
  · intro i hi; exact back i (Finset.mem_filter.mp hi).2
  · intro uv _; rfl
  · intro i hi; exact congrArg x (back i (Finset.mem_filter.mp hi).2).symm

/-- The host's sum over the two middle axes, at the extended reals and at (p, q): the starting value plus the double
    sum over the middle coordinates. -/
theorem hostReduceAdd_mid_apply (x : (⟨4, ![n0, n1, n2, n3]⟩ : Shape).Idx → EReal) (init : EReal)
    (h : (⟨4, ![n0, n1, n2, n3]⟩ : Shape).ReducesTo [(1 : Fin 4), (2 : Fin 4)] ⟨2, ![n0, n3]⟩) (p : Fin n0) (q : Fin n3) :
    Ideal.hostReduceAdd h x init (ix2 p q) = init + ∑ u : Fin n1, ∑ v : Fin n2, x (ix4 p u v q) := by
  unfold Ideal.hostReduceAdd
  exact congrArg (init + ·) (sum_filter_outer h.drop (fun _ => rfl) (fun _ => rfl) x p q)

/-- The same for the program's spelling: a host reduce with an add body from a rank-zero starting value. -/
theorem host_reduceAdd_mid_apply {φ : FTy} {u : Shape} (x : FVec Ideal ⟨4, ![n0, n1, n2, n3]⟩ φ) (init : u.Idx → Ideal φ)
    (h : (⟨4, ![n0, n1, n2, n3]⟩ : Shape).ReducesTo [(1 : Fin 4), (2 : Fin 4)] ⟨2, ![n0, n3]⟩) (hu : 0 < u.numel)
    (p : Fin n0) (q : Fin n3) :
    Host.reduceAdd (F := Ideal) x init h hu (ix2 p q)
      = init (Shape.Idx.first hu) + ∑ a : Fin n1, ∑ b : Fin n2, x (ix4 p a b q) :=
  hostReduceAdd_mid_apply x (init (Shape.Idx.first hu)) h p q

/-- A kernel's sum over axis 1 alone, at the extended reals and at (p, v, q): the sum over u of the entries (p, u, v, q). -/
theorem multiReduction_add_axis1_apply {φ : FTy} (src : FVec Ideal ⟨4, ![n0, n1, n2, n3]⟩ φ) (acc : BitVec φ.bits)
    (h : (⟨4, ![n0, n1, n2, n3]⟩ : Shape).Reduces [(1 : Fin 4)] ⟨3, ![n0, n2, n3]⟩) (hφ : FKind.Formats φ)
    (hacc : acc = FKind.add.neutral φ hφ) (p : Fin n0) (v : Fin n2) (q : Fin n3) :
    multiReduction .add [(1 : Fin 4)] ⟨3, ![n0, n2, n3]⟩ src acc h hφ hacc (ix3 p v q) = ∑ u : Fin n1, src (ix4 p u v q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl
  | ⟨3, _⟩ => rfl

/-- A kernel's sum over axis 2 alone, at the extended reals and at (p, u, q): the sum over v of the entries (p, u, v, q). -/
theorem multiReduction_add_axis2_apply {φ : FTy} (src : FVec Ideal ⟨4, ![n0, n1, n2, n3]⟩ φ) (acc : BitVec φ.bits)
    (h : (⟨4, ![n0, n1, n2, n3]⟩ : Shape).Reduces [(2 : Fin 4)] ⟨3, ![n0, n1, n3]⟩) (hφ : FKind.Formats φ)
    (hacc : acc = FKind.add.neutral φ hφ) (p : Fin n0) (u : Fin n1) (q : Fin n3) :
    multiReduction .add [(2 : Fin 4)] ⟨3, ![n0, n1, n3]⟩ src acc h hφ hacc (ix3 p u q) = ∑ v : Fin n2, src (ix4 p u v q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl
  | ⟨3, _⟩ => rfl

end Cert.LibMidPlanes

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.DiagSums.lean ====
/-
  The diagonal sum and the total sum of a batch of square node-pair arrays, and the off-diagonal sum as their difference.

  For x of shape [16, 512, 512, 64] (batch b, row i, column j, channel c) over the extended reals, the result has
  shape [16, 128]: columns 0..63 hold the diagonal sum, the sum over (i, j) of x(b, i, j, c) where i = j and of the
  zero value elsewhere; columns 64..127 hold the total sum over (i, j) less the diagonal sum. Both sums start from the
  value of the f32 zero word, which is kept as a term: it is the same on both sides and is never evaluated.

  The same two sums taken 8 rows at a time: row r of step k is row 8k + r, step k adds the 8 rows' contribution, and
  after the 64 steps the running sums are the two sums above. Only the commutative-monoid laws of + are used (a sum
  may be regrouped and reordered at any extended real), so no entry needs to be finite.
-/
import Idealize.ShloMosaic.PureOps.Ideal
import Idealize.ShloMosaic.Lib.ValueIdx
import proofs.«113399_j74053826118101_2_alg».proof.Proof.LibBlocks

noncomputable section

namespace Cert.DiagSums

open Idealize.ShloMosaic Idealize.ShloMosaic.ValueIdx
open scoped BigOperators

/-- The input: 16 batches of 512 × 512 node pairs with 64 channels. -/
abbrev Arr : Type := (⟨4, ![16, 512, 512, 64]⟩ : Shape).Idx → EReal

/-- The value of the f32 zero word. -/
def zero : EReal := Ideal.ofBits .f32 0x00000000#32

/-- Entry (i, j) of batch b and channel c where the row and column numbers agree as 32-bit words, the zero value elsewhere. -/
def masked (X : Arr) (b : Fin 16) (c : Fin 64) (i j : Fin 512) : EReal :=
  Scalar.select (IntOp.cmpi .eq (BitVec.ofNat 32 i.val) (BitVec.ofNat 32 j.val)) (X (ix4 b i j c)) zero

/-- The diagonal sum of batch b and channel c. -/
def diag (X : Arr) (b : Fin 16) (c : Fin 64) : EReal := zero + ∑ i : Fin 512, ∑ j : Fin 512, masked X b c i j

/-- The total sum of batch b and channel c. -/
def total (X : Arr) (b : Fin 16) (c : Fin 64) : EReal := zero + ∑ i : Fin 512, ∑ j : Fin 512, X (ix4 b i j c)

/-- The result at batch b and column k: the diagonal sum in the left half, the total less the diagonal sum in the right half. -/
def resultAt (X : Arr) (b : Fin 16) (k : Fin 128) : EReal :=
  if h : k.val < 64 then diag X b ⟨k.val, h⟩
  else total X b ⟨k.val - 64, by have := k.isLt; omega⟩ - diag X b ⟨k.val - 64, by have := k.isLt; omega⟩

/-- The result array. -/
def result (X : Arr) : (⟨2, ![16, 128]⟩ : Shape).Idx → EReal := fun o => resultAt X (o 0) (o 1)

theorem resultAt_left (X : Arr) (b : Fin 16) (k : Fin 128) (k' : Fin 64) (hk : k.val = k'.val) :
    resultAt X b k = diag X b k' := by
  unfold resultAt
  rw [dif_pos (by have := k'.isLt; omega)]
  exact congrArg (diag X b) (Fin.ext hk)

theorem resultAt_right (X : Arr) (b : Fin 16) (k : Fin 128) (k' : Fin 64) (hk : k.val = 64 + k'.val) :
    resultAt X b k = total X b k' - diag X b k' := by
  unfold resultAt
  rw [dif_neg (by omega)]
  have e : (⟨k.val - 64, by have := k.isLt; omega⟩ : Fin 64) = k' := Fin.ext (by show k.val - 64 = k'.val; omega)
  rw [e]

/-! ## Eight rows at a time -/

/-- Row r of step k's eight rows (steps 0..63 tile the 512 rows). -/
def rowOf (k : ℕ) (r : Fin 8) : Fin 512 := ⟨(8 * k + r.val) % 512, Nat.mod_lt _ (by decide)⟩

/-- Step k's contribution to the diagonal sum: its eight rows, each summed over the columns. -/
def diagStep (X : Arr) (b : Fin 16) (c : Fin 64) (k : ℕ) : EReal :=
  ∑ r : Fin 8, ∑ j : Fin 512, masked X b c (rowOf k r) j

/-- Step k's contribution to the total sum: over the columns, the sum of its eight rows' entries. -/
def totalStep (X : Arr) (b : Fin 16) (c : Fin 64) (k : ℕ) : EReal :=
  ∑ j : Fin 512, ∑ r : Fin 8, X (ix4 b (rowOf k r) j c)

/-- The running diagonal sum after steps 0..n. -/
def diagAcc (X : Arr) (b : Fin 16) (c : Fin 64) (n : ℕ) : EReal := zero + ∑ k ∈ Finset.range (n + 1), diagStep X b c k

/-- The running total sum after steps 0..n. -/
def totalAcc (X : Arr) (b : Fin 16) (c : Fin 64) (n : ℕ) : EReal := zero + ∑ k ∈ Finset.range (n + 1), totalStep X b c k

theorem diagAcc_zero (X : Arr) (b : Fin 16) (c : Fin 64) : diagAcc X b c 0 = zero + diagStep X b c 0 := by
  unfold diagAcc; rw [Finset.sum_range_one]

theorem diagAcc_succ (X : Arr) (b : Fin 16) (c : Fin 64) (n : ℕ) :
    diagAcc X b c (n + 1) = diagAcc X b c n + diagStep X b c (n + 1) := by
  unfold diagAcc; rw [Finset.sum_range_succ _ (n + 1), add_assoc]

theorem totalAcc_zero (X : Arr) (b : Fin 16) (c : Fin 64) : totalAcc X b c 0 = zero + totalStep X b c 0 := by
  unfold totalAcc; rw [Finset.sum_range_one]

theorem totalAcc_succ (X : Arr) (b : Fin 16) (c : Fin 64) (n : ℕ) :
    totalAcc X b c (n + 1) = totalAcc X b c n + totalStep X b c (n + 1) := by
  unfold totalAcc; rw [Finset.sum_range_succ _ (n + 1), add_assoc]

/-- The 64 steps' rows are the 512 rows: a sum over the steps of the sums over each step's eight rows is the sum over
    all rows. -/
theorem sum_rows {M : Type*} [AddCommMonoid M] (g : Fin 512 → M) :
    ∑ k ∈ Finset.range 64, ∑ r : Fin 8, g (rowOf k r) = ∑ i : Fin 512, g i := by
  rw [Finset.sum_range]
  refine ((Cert.LibBlocks.sum_entries (A := 64) (B := 8) g).trans ?_).symm
  refine Finset.sum_congr rfl fun k _ => Finset.sum_congr rfl fun r _ => congrArg g (Fin.ext ?_)
  show k.val * 8 + r.val = (8 * k.val + r.val) % 512
  have := k.isLt; have := r.isLt; omega

/-- After the last step the running diagonal sum is the diagonal sum. -/
theorem diagAcc_last (X : Arr) (b : Fin 16) (c : Fin 64) : diagAcc X b c 63 = diag X b c := by
  unfold diagAcc diag diagStep
  exact congrArg (zero + ·) (sum_rows fun i => ∑ j : Fin 512, masked X b c i j)

/-- After the last step the running total sum is the total sum (each step sums its rows inside the columns: the two
    orders agree). -/
theorem totalAcc_last (X : Arr) (b : Fin 16) (c : Fin 64) : totalAcc X b c 63 = total X b c := by
  unfold totalAcc total totalStep
  refine congrArg (zero + ·) ?_
  rw [← sum_rows fun i => ∑ j : Fin 512, X (ix4 b i j c)]
  exact Finset.sum_congr rfl fun k _ => Finset.sum_comm

/-- The word a step compares with the column number, 8·k + r computed in 32 bits, is the row's number. -/
theorem row_word (k : ℕ) (hk : k < 64) (r : Fin 8) :
    IntOp.addi (Scalar.muli (BitVec.ofNat 32 k) 8#32) (BitVec.ofNat 32 r.val) = BitVec.ofNat 32 (rowOf k r).val := by
  show BitVec.ofNat 32 k * BitVec.ofNat 32 8 + BitVec.ofNat 32 r.val = BitVec.ofNat 32 ((8 * k + r.val) % 512)
  rw [Nat.mod_eq_of_lt (by have := r.isLt; omega), ← BitVec.ofNat_mul, ← BitVec.ofNat_add, Nat.mul_comm]

end Cert.DiagSums

end
-- ==== Proof.Updates.lean ====
/-
  One step's arithmetic read at coordinates, at the extended reals.

  The zero fill is the zero value at every entry. The diagonal sum's update, at batch row b and channel c of the block,
  is what the sum held plus, over the step's 8 rows r and the 512 columns j, the block's entry (b, r, j, c) where the
  word 8·(step number) + r equals the word j, and the zero value elsewhere: the sum over the columns is taken first,
  then the sum over the 8 rows. The total sum's update is what the sum held plus, over the 512 columns, the sum of the
  8 rows' entries. The output's right half is the total sum less the diagonal sum, entry by entry.
-/
import proofs.«113399_j74053826118101_2_alg».proof.Proof.Gen.KernelIdeal.Skeleton
import proofs.«113399_j74053826118101_2_alg».proof.Proof.LibMid
import proofs.«113399_j74053826118101_2_alg».proof.Proof.LibMidPlanes
import proofs.«113399_j74053826118101_2_alg».proof.Proof.DiagSums
import Idealize.ShloMosaic.Lib.Pipeline.Value
import Idealize.ShloMosaic.Lib.ValueIdx
import Idealize.ShloMosaic.PureOps.Ideal.Laws

noncomputable section

namespace Cert.KernelIdeal.Updates

open Cert.KernelIdeal Cert.KernelIdeal.Gen
open Idealize.ShloMosaic Idealize.ShloMosaic.ValueIdx
open scoped BigOperators

/-- The zero fill of the diagonal sum. -/
theorem fill_diag_apply (y : S8x64.Idx) : k0_pay1 (F := Ideal) y = Cert.DiagSums.zero := by
  unfold k0_pay1
  exact congrFun (shapeCast_self _ _) y

/-- The zero fill of the total sum. -/
theorem fill_total_apply (y : S8x64.Idx) : k0_pay2 (F := Ideal) y = Cert.DiagSums.zero := by
  unfold k0_pay2
  exact congrFun (shapeCast_self _ _) y

/-- One step's update of the diagonal sum at (b, c): what it held plus the step's 8 rows of masked entries. -/
theorem diag_update_apply (i : grid0.Coords) (v8 : FVec Ideal S8x8x512x64 .f32) (v16 : FVec Ideal S8x64 .f32)
    (b : Fin 8) (c : Fin 64) :
    k0_pay3 (F := Ideal) i v8 v16 (ix2 b c)
      = v16 (ix2 b c) + ∑ r : Fin 8, ∑ j : Fin 512,
          Scalar.select
            (IntOp.cmpi .eq (IntOp.addi (Scalar.muli (BitVec.ofNat 32 (i 1).val) 8#32) (BitVec.ofNat 32 r.val))
              (BitVec.ofNat 32 j.val))
            (v8 (ix4 b r j c)) Cert.DiagSums.zero := by
  unfold k0_pay3
  refine (congrFun (shapeCast_self _ _) (ix2 b c)).trans ?_
  refine congrArg (v16 (ix2 b c) + ·) ?_
  refine (Cert.LibMid.multiReduction_add_mid_apply _ _ _ _ _ b c).trans ?_
  refine Finset.sum_congr rfl fun r _ => ?_
  refine (Cert.LibMidPlanes.multiReduction_add_axis2_apply _ _ _ _ _ b r c).trans ?_
  refine Finset.sum_congr rfl fun j _ => ?_
  show Scalar.select (IntOp.cmpi .eq (IntOp.addi _ (iota .tc S8x8x512x64 32 [1] _ (ix4 b r j c)))
    (iota .tc S8x8x512x64 32 [2] _ (ix4 b r j c))) _ _ = _
  rw [iota_single_apply, iota_single_apply]
  rfl

/-- One step's update of the total sum at (b, c): what it held plus, over the columns, the sum of the step's 8 rows. -/
theorem total_update_apply (v8 : FVec Ideal S8x8x512x64 .f32) (v21 : FVec Ideal S8x64 .f32) (b : Fin 8) (c : Fin 64) :
    k0_pay4 (F := Ideal) v8 v21 (ix2 b c) = v21 (ix2 b c) + ∑ j : Fin 512, ∑ r : Fin 8, v8 (ix4 b r j c) := by
  unfold k0_pay4
  refine (congrFun (shapeCast_self _ _) (ix2 b c)).trans ?_
  refine congrArg (v21 (ix2 b c) + ·) ?_
  refine (Cert.LibMid.multiReduction_add_mid_apply _ _ _ _ _ b c).trans ?_
  refine Finset.sum_congr rfl fun j _ => ?_
  exact Cert.LibMidPlanes.multiReduction_add_axis1_apply _ _ _ _ _ b j c

/-- The output's right half: the total sum less the diagonal sum. -/
theorem off_diag_apply (v29 v30 : FVec Ideal S8x64 .f32) (y : S8x64.Idx) : k0_pay5 (F := Ideal) v29 v30 y = v30 y - v29 y := rfl

end Cert.KernelIdeal.Updates

end
-- ==== Proof.Blocks.lean ====
/-
  The grid's points and the blocks they see.

  The grid is 2 × 64: point t works on batch block t / 64 (batch rows 8·(t/64) .. 8·(t/64)+7) at step t % 64 (rows
  8·(t%64) .. 8·(t%64)+7 of the 512, every column and channel). The input block of point t, at (b, r, j, c), is the
  input at (8·(t/64) + b, 8·(t%64) + r, j, c). The output block of point t is the 8 batch rows of its batch block,
  all 128 columns.
-/
import proofs.«113399_j74053826118101_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The step number of a point is its second grid coordinate. -/
theorem coords_step : ∀ t : Fin cfg0.N, (grid0.coords t (1 : Fin 2)).val = t.val % 64 :=
  (by decide +kernel : ∀ t : Fin grid0.N, (grid0.coords t (1 : Fin 2)).val = t.val % 64)

/-- The input window's block index at a point: (batch block, step, 0, 0). -/
theorem in_index : ∀ t : Fin cfg0.N, win0_0.index t (0 : Fin 4) = t.val / 64 ∧ win0_0.index t (1 : Fin 4) = t.val % 64
    ∧ win0_0.index t (2 : Fin 4) = 0 ∧ win0_0.index t (3 : Fin 4) = 0 :=
  (by decide +kernel : ∀ t : Fin grid0.N, win0_0.index t (0 : Fin 4) = t.val / 64 ∧ win0_0.index t (1 : Fin 4) = t.val % 64
    ∧ win0_0.index t (2 : Fin 4) = 0 ∧ win0_0.index t (3 : Fin 4) = 0)

/-- The output window's block index at a point: (batch block, 0). -/
theorem out_index : ∀ t : Fin cfg0.N, win0_1.index t (0 : Fin 2) = t.val / 64 ∧ win0_1.index t (1 : Fin 2) = 0 :=
  (by decide +kernel : ∀ t : Fin grid0.N, win0_1.index t (0 : Fin 2) = t.val / 64 ∧ win0_1.index t (1 : Fin 2) = 0)

/-- The input block of point t at (b, r, j, ch): the input at batch row 8·(t/64) + b and row 8·(t%64) + r. -/
theorem in_block_apply (c : Dev nD) (t : Fin cfg0.N) (b r : Fin 8) (j : Fin 512) (ch : Fin 64)
    (B : Fin 16) (R : Fin 512) (hB : B.val = 8 * (t.val / 64) + b.val) (hR : R.val = 8 * (t.val % 64) + r.val) :
    (iblk m c 0 t : Vec F S8x8x512x64 .f32) (ix4 b r j ch)
      = (m ((c : Thread nD τ).loc main_arg0) : Vec F S16x512x512x64 .f32) (ix4 B R j ch) := by
  unfold iblk
  rw [View.read_apply]
  show V m c main_arg0 _ = _
  unfold V
  refine congrArg (m ((c : Thread nD τ).loc main_arg0)) (funext fun a => Fin.ext ?_)
  obtain ⟨h0, h1, h2, h3⟩ := in_index t
  match a with
  | ⟨0, _⟩ => show win0_0.index t (0 : Fin 4) * 8 + 1 * b.val = B.val; rw [h0, hB]; omega
  | ⟨1, _⟩ => show win0_0.index t (1 : Fin 4) * 8 + 1 * r.val = R.val; rw [h1, hR]; omega
  | ⟨2, _⟩ => show win0_0.index t (2 : Fin 4) * 512 + 1 * j.val = j.val; rw [h2]; omega
  | ⟨3, _⟩ => show win0_0.index t (3 : Fin 4) * 64 + 1 * ch.val = ch.val; rw [h3]; omega

end Cert.KernelIdeal.Blocks

end
-- ==== Proof.Running.lean ====
/-
  The kernel's running sums are the specification's, and its result array is the specification's result.

  By induction on the grid point: after point t the diagonal-sum scratch holds, at block row b and channel c, the
  running diagonal sum of batch row 8·(t/64) + b over steps 0..t%64, and the total-sum scratch the running total sum.
  At the first step of a batch block both start from the zero fill; each later step adds its 8 rows to what the point
  before left. At step 63 the running sums are the full sums, and the output block written back there is the
  result's rows of that batch block: the two blocks written back cover the result array.
-/
import proofs.«113399_j74053826118101_2_alg».proof.Proof.Gen.KernelIdeal.Value
import proofs.«113399_j74053826118101_2_alg».proof.Proof.Carried
import proofs.«113399_j74053826118101_2_alg».proof.Proof.Updates
import proofs.«113399_j74053826118101_2_alg».proof.Proof.Blocks
import proofs.«113399_j74053826118101_2_alg».proof.Proof.DiagSums
import Idealize.ShloMosaic.Lib.Pipeline.Value
import Idealize.ShloMosaic.Lib.ValueIdx

noncomputable section

namespace Cert.KernelIdeal.Running

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The input as the kernel is launched with it. -/
abbrev X (c : Dev nD) : Cert.DiagSums.Arr := m ((c : Thread nD τ).loc main_arg0)

/-- The batch row that block row b is at point n (points 0..127: batch block n / 64). -/
def batchRow (n : ℕ) (b : Fin 8) : Fin 16 := ⟨(8 * (n / 64) + b.val) % 16, Nat.mod_lt _ (by decide)⟩

theorem batchRow_val (n : ℕ) (hn : n < 128) (b : Fin 8) : (batchRow n b).val = 8 * (n / 64) + b.val := by
  show (8 * (n / 64) + b.val) % 16 = _
  have := b.isLt; omega

/-- The input block of point t, as an array of extended reals. -/
abbrev blk (c : Dev nD) (t : Fin cfg0.N) : FVec Ideal S8x8x512x64 .f32 := iblk m c 0 t

/-- The input block of point t at (b, r, j, ch) is the input at batch row 8·(t/64) + b and row 8·(t%64) + r. -/
theorem blk_apply (c : Dev nD) (t : Fin cfg0.N) (b r : Fin 8) (j : Fin 512) (ch : Fin 64) :
    blk m c t (ix4 b r j ch) = X m c (ix4 (batchRow t.val b) (Cert.DiagSums.rowOf (t.val % 64) r) j ch) := by
  have hN : t.val < 128 := lt_of_lt_of_eq t.isLt N_0
  exact Blocks.in_block_apply m c t b r j ch (batchRow t.val b) (Cert.DiagSums.rowOf (t.val % 64) r) (batchRow_val _ hN b)
    (by show (8 * (t.val % 64) + r.val) % 512 = _; have := r.isLt; omega)

/-- A step's 8 rows of masked block entries are the specification's contribution of that step. -/
theorem diag_step_eq (c : Dev nD) (t : Fin cfg0.N) (b : Fin 8) (ch : Fin 64) :
    (∑ r : Fin 8, ∑ j : Fin 512,
        Scalar.select
          (IntOp.cmpi .eq (IntOp.addi (Scalar.muli (BitVec.ofNat 32 (grid0.coords t 1).val) 8#32) (BitVec.ofNat 32 r.val))
            (BitVec.ofNat 32 j.val))
          (blk m c t (ix4 b r j ch)) Cert.DiagSums.zero)
      = Cert.DiagSums.diagStep (X m c) (batchRow t.val b) ch (t.val % 64) := by
  have hk : (grid0.coords t 1).val = t.val % 64 := Blocks.coords_step t
  unfold Cert.DiagSums.diagStep
  refine Finset.sum_congr rfl fun r _ => Finset.sum_congr rfl fun j _ => ?_
  rw [hk, Cert.DiagSums.row_word _ (Nat.mod_lt _ (by decide)) r, blk_apply m c t b r j ch]
  rfl

/-- A step's columns of 8-row sums are the specification's contribution of that step. -/
theorem total_step_eq (c : Dev nD) (t : Fin cfg0.N) (b : Fin 8) (ch : Fin 64) :
    (∑ j : Fin 512, ∑ r : Fin 8, blk m c t (ix4 b r j ch))
      = Cert.DiagSums.totalStep (X m c) (batchRow t.val b) ch (t.val % 64) := by
  unfold Cert.DiagSums.totalStep
  exact Finset.sum_congr rfl fun j _ => Finset.sum_congr rfl fun r _ => blk_apply m c t b r j ch

/-! ## The induction's two steps -/

theorem diag_first_point (c : Dev nD) (t : Fin cfg0.N) (h0 : t.val % 64 = 0) (b : Fin 8) (ch : Fin 64) :
    (outsAt0 m c t.val t.isLt).2.1 (ix2 b ch) = Cert.DiagSums.diagAcc (X m c) (batchRow t.val b) ch (t.val % 64) := by
  rw [Carried.diag_at_first m c t h0]
  refine (Updates.diag_update_apply (grid0.coords t) (blk m c t) _ b ch).trans ?_
  rw [Updates.fill_diag_apply, diag_step_eq m c t b ch, h0]
  exact (Cert.DiagSums.diagAcc_zero _ _ _).symm

theorem total_first_point (c : Dev nD) (t : Fin cfg0.N) (h0 : t.val % 64 = 0) (b : Fin 8) (ch : Fin 64) :
    (outsAt0 m c t.val t.isLt).2.2 (ix2 b ch) = Cert.DiagSums.totalAcc (X m c) (batchRow t.val b) ch (t.val % 64) := by
  rw [Carried.total_at_first m c t h0]
  refine (Updates.total_update_apply (blk m c t) _ b ch).trans ?_
  rw [Updates.fill_total_apply, total_step_eq m c t b ch, h0]
  exact (Cert.DiagSums.totalAcc_zero _ _ _).symm

theorem diag_later_point (c : Dev nD) (t : Fin cfg0.N) (h0 : ¬t.val % 64 = 0) (b : Fin 8) (ch : Fin 64)
    (ih : (outsAt0 m c (t.val - 1) (Nat.lt_of_le_of_lt (Nat.sub_le _ _) t.isLt)).2.1 (ix2 b ch)
      = Cert.DiagSums.diagAcc (X m c) (batchRow (t.val - 1) b) ch ((t.val - 1) % 64)) :
    (outsAt0 m c t.val t.isLt).2.1 (ix2 b ch) = Cert.DiagSums.diagAcc (X m c) (batchRow t.val b) ch (t.val % 64) := by
  rw [Carried.diag_at_later m c t h0]
  refine (Updates.diag_update_apply (grid0.coords t) (blk m c t) _ b ch).trans ?_
  rw [ih, diag_step_eq m c t b ch]
  have e1 : batchRow (t.val - 1) b = batchRow t.val b := by
    unfold batchRow
    exact Fin.ext (by show (8 * ((t.val - 1) / 64) + b.val) % 16 = (8 * (t.val / 64) + b.val) % 16; omega)
  have e2 : t.val % 64 = (t.val - 1) % 64 + 1 := by omega
  rw [e1, e2]
  exact (Cert.DiagSums.diagAcc_succ _ _ _ _).symm

theorem total_later_point (c : Dev nD) (t : Fin cfg0.N) (h0 : ¬t.val % 64 = 0) (b : Fin 8) (ch : Fin 64)
    (ih : (outsAt0 m c (t.val - 1) (Nat.lt_of_le_of_lt (Nat.sub_le _ _) t.isLt)).2.2 (ix2 b ch)
      = Cert.DiagSums.totalAcc (X m c) (batchRow (t.val - 1) b) ch ((t.val - 1) % 64)) :
    (outsAt0 m c t.val t.isLt).2.2 (ix2 b ch) = Cert.DiagSums.totalAcc (X m c) (batchRow t.val b) ch (t.val % 64) := by
  rw [Carried.total_at_later m c t h0]
  refine (Updates.total_update_apply (blk m c t) _ b ch).trans ?_
  rw [ih, total_step_eq m c t b ch]
  have e1 : batchRow (t.val - 1) b = batchRow t.val b := by
    unfold batchRow
    exact Fin.ext (by show (8 * ((t.val - 1) / 64) + b.val) % 16 = (8 * (t.val / 64) + b.val) % 16; omega)
  have e2 : t.val % 64 = (t.val - 1) % 64 + 1 := by omega
  rw [e1, e2]
  exact (Cert.DiagSums.totalAcc_succ _ _ _ _).symm

/-- After every point the two scratch arrays hold the running diagonal sum and the running total sum. -/
theorem running (c : Dev nD) : ∀ (n : ℕ) (h : n < cfg0.N) (b : Fin 8) (ch : Fin 64),
    (outsAt0 m c n h).2.1 (ix2 b ch) = Cert.DiagSums.diagAcc (X m c) (batchRow n b) ch (n % 64)
    ∧ (outsAt0 m c n h).2.2 (ix2 b ch) = Cert.DiagSums.totalAcc (X m c) (batchRow n b) ch (n % 64)
  | 0, h, b, ch => ⟨diag_first_point m c ⟨0, h⟩ rfl b ch, total_first_point m c ⟨0, h⟩ rfl b ch⟩
  | n + 1, h, b, ch => by
    by_cases h0 : (n + 1) % 64 = 0
    · exact ⟨diag_first_point m c ⟨n + 1, h⟩ h0 b ch, total_first_point m c ⟨n + 1, h⟩ h0 b ch⟩
    · have ih := running c n (Nat.lt_of_succ_lt h) b ch
      exact ⟨diag_later_point m c ⟨n + 1, h⟩ h0 b ch ih.1, total_later_point m c ⟨n + 1, h⟩ h0 b ch ih.2⟩

/-! ## The output block of a batch block's last step, and the result array -/

/-- At the last step of a batch block the output block holds the result's rows of that batch block. -/
theorem out_block_apply (c : Dev nD) (t : Fin cfg0.N) (h1 : t.val % 64 = 63) (b : Fin 8) (k : Fin 128) :
    (outsAt0 m c t.val t.isLt).1 (ix2 b k) = Cert.DiagSums.resultAt (X m c) (batchRow t.val b) k := by
  by_cases hk : k.val < 64
  · rw [Carried.out_at_last_left m c t h1 b k ⟨k.val, hk⟩ rfl, (running m c t.val t.isLt b _).1, h1,
      Cert.DiagSums.diagAcc_last]
    exact (Cert.DiagSums.resultAt_left _ _ _ _ rfl).symm
  · have hk' : k.val - 64 < 64 := by have := k.isLt; omega
    have e : k.val = 64 + (⟨k.val - 64, hk'⟩ : Fin 64).val := by show k.val = 64 + (k.val - 64); omega
    rw [Carried.out_at_last_right m c t h1 b k ⟨k.val - 64, hk'⟩ e, Updates.off_diag_apply,
      (running m c t.val t.isLt b _).1, (running m c t.val t.isLt b _).2, h1,
      Cert.DiagSums.diagAcc_last, Cert.DiagSums.totalAcc_last]
    exact (Cert.DiagSums.resultAt_right _ _ _ _ e).symm

/-- The result array: the specification's result of the input. -/
abbrev resultArr (c : Dev nD) : Buf (Elt Ideal) ((c : Thread nD τ).loc main_v0) := Cert.DiagSums.result (X m c)

/-- What a point that writes back writes is its block of the result. -/
theorem flushed_eq (c : Dev nD) (t : Fin cfg0.N) (hf : (cfg0.win 1).flush t = true) :
    (dats m 0 c).flushed 1 t = ((cfg0.win 1).blk t).view.read (Elt Ideal) (resultArr m c) := by
  have h1 : t.val % 64 = 63 := (flush0_1 t).mp hf
  have hN : t.val < 128 := lt_of_lt_of_eq t.isLt N_0
  obtain ⟨i0, i1⟩ := Blocks.out_index t
  rw [Cert.KernelIdeal.Value.flushed1]
  funext j
  show (outsAt0 m c t.val t.isLt).1 j = Cert.DiagSums.result (X m c) (((cfg0.win 1).blk t).view.emb j)
  have hj0 : (j 0).val < 8 := (j 0).isLt
  have hj1 : (j 1).val < 128 := (j 1).isLt
  refine ((congrArg (outsAt0 m c t.val t.isLt).1 (eq_ix2 j)).trans
    (out_block_apply m c t h1 ⟨(j 0).val, hj0⟩ ⟨(j 1).val, hj1⟩)).trans ?_
  show Cert.DiagSums.resultAt (X m c) _ _ = Cert.DiagSums.resultAt (X m c) _ _
  congr 1
  · refine Fin.ext ?_
    rw [batchRow_val _ hN]
    show 8 * (t.val / 64) + (j 0).val = win0_1.index t (0 : Fin 2) * 8 + 1 * (j 0).val
    rw [i0]; omega
  · refine Fin.ext ?_
    show (j 1).val = win0_1.index t (1 : Fin 2) * 128 + 1 * (j 1).val
    rw [i1]; omega

/-- An index of the result array is in point t's block iff each coordinate is in the block's range. -/
theorem mem_blk (t : Fin cfg0.N) (i : S16x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v0).slice (win0_1.rect t)).set ↔ _
  rw [View.set_slice_whole, Rect.mem_set_unit]
  exact Iff.rfl

/-- After the run the result array is the specification's result: batch rows 0..7 are written back at point 63,
    batch rows 8..15 at point 127. -/
theorem final (c : Dev nD) : (dats m 0 c).arrAt 1 cfg0.N = resultArr m c :=
  (dats m 0 c).arrAt_eq_of_cover 1 (resultArr m c) (flushed_eq m c) fun i => by
    have hi0 : (i 0).val < 16 := (i 0).isLt
    have hi1 : (i 1).val < 128 := (i 1).isLt
    have hN : cfg0.N = 128 := N_0
    let t : Fin cfg0.N := ⟨64 * ((i 0).val / 8) + 63, by rw [hN]; omega⟩
    have ht : t.val = 64 * ((i 0).val / 8) + 63 := rfl
    obtain ⟨i0, i1⟩ := Blocks.out_index t
    refine ⟨t, (flush0_1 t).mpr (by rw [ht]; omega), ?_⟩
    rw [mem_blk]
    intro a
    match a with
    | ⟨0, _⟩ =>
      show win0_1.index t (0 : Fin 2) * 8 ≤ (i 0).val ∧ (i 0).val < win0_1.index t (0 : Fin 2) * 8 + 8
      rw [i0, ht]; omega
    | ⟨1, _⟩ =>
      show win0_1.index t (1 : Fin 2) * 128 ≤ (i 1).val ∧ (i 1).val < win0_1.index t (1 : Fin 2) * 128 + 128
      rw [i1]; omega

/-- The run, read: the result array at the specification's result of the input, the input unchanged. -/
theorem run : θ_run defs (onTc (τ := τ) (main (F := Ideal))) ⟨m, fun _ => 0, ρ⟩ fun r => ∀ c : Dev nD,
      r.2.mem ((c : Thread nD τ).loc main_v0) = resultArr m c
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Running

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.RefValue.lean ====
/-
  The reference computes the diagonal-and-total-sum result.

  The reference masks the input with the comparison of a row-number array and a column-number array (equal as 32-bit
  words), sums the masked input and the input itself over the row and column axes from the zero value, subtracts, and
  joins the diagonal sum and the difference along the columns. Read at (b, k): for k < 64 the diagonal sum of batch b
  and channel k, otherwise the total sum less the diagonal sum of channel k - 64.
-/
import proofs.«113399_j74053826118101_2_alg».proof.Proof.Gen.ReferenceIdeal.Read
import proofs.«113399_j74053826118101_2_alg».proof.Proof.LibMidPlanes
import proofs.«113399_j74053826118101_2_alg».proof.Proof.LibColsJoin
import proofs.«113399_j74053826118101_2_alg».proof.Proof.DiagSums
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The masked input at (b, i, j, c): the entry where the row and column numbers agree, the zero value elsewhere. -/
theorem masked_apply (x0 : FVec Ideal S16x512x512x64 .f32) (b : Fin 16) (i j : Fin 512) (c : Fin 64) :
    val_main_v5 (F := Ideal) x0 (ix4 b i j c) = Cert.DiagSums.masked x0 b c i j := by
  rw [val_main_v5_apply, val_main_v3_apply, val_main_v4_apply]
  rfl

/-- The reference's first sum at (b, c) is the diagonal sum. -/
theorem diag_apply (x0 : FVec Ideal S16x512x512x64 .f32) (b : Fin 16) (c : Fin 64) :
    val_main_v6 (F := Ideal) x0 (ix2 b c) = Cert.DiagSums.diag x0 b c := by
  unfold val_main_v6
  refine (Cert.LibMidPlanes.host_reduceAdd_mid_apply _ _ _ _ b c).trans ?_
  unfold Cert.DiagSums.diag
  exact congrArg (Cert.DiagSums.zero + ·)
    (Finset.sum_congr rfl fun i _ => Finset.sum_congr rfl fun j _ => masked_apply x0 b i j c)

/-- The reference's second sum at (b, c) is the total sum. -/
theorem total_apply (x0 : FVec Ideal S16x512x512x64 .f32) (b : Fin 16) (c : Fin 64) :
    val_main_v7 (F := Ideal) x0 (ix2 b c) = Cert.DiagSums.total x0 b c := by
  unfold val_main_v7
  exact Cert.LibMidPlanes.host_reduceAdd_mid_apply _ _ _ _ b c

/-- The reference's result is the diagonal-and-total-sum result. -/
theorem result_eq (x0 : FVec Ideal S16x512x512x64 .f32) : val_main_v9 (F := Ideal) x0 = Cert.DiagSums.result x0 := by
  funext o
  obtain ⟨b, k, rfl⟩ : ∃ (b : Fin 16) (k : Fin 128), o = ix2 b k := ⟨o 0, o 1, eq_ix2 o⟩
  show _ = Cert.DiagSums.resultAt x0 b k
  unfold val_main_v9
  by_cases hk : k.val < 64
  · rw [Cert.DiagSums.resultAt_left x0 b k ⟨k.val, hk⟩ rfl]
    refine (Cert.LibColsJoin.cat_cols_left _ _ _ b ⟨k.val, hk⟩ k rfl).trans ?_
    exact diag_apply x0 b _
  · have hk' : k.val - 64 < 64 := by have := k.isLt; omega
    have e : k.val = 64 + (⟨k.val - 64, hk'⟩ : Fin 64).val := by show k.val = 64 + (k.val - 64); omega
    rw [Cert.DiagSums.resultAt_right x0 b k ⟨k.val - 64, hk'⟩ e]
    refine (Cert.LibColsJoin.cat_cols_right _ _ _ b ⟨k.val - 64, hk'⟩ k e).trans ?_
    rw [val_main_v8_apply, total_apply, diag_apply]
    rfl

end Cert.ReferenceIdeal.RefValue

end
-- ==== Proof.lean ====
/-
  The kernel and the reference compute one function at the extended reals.

  For x of shape [16, 512, 512, 64] both produce a [16, 128] array: columns 0..63 hold the diagonal sum over the node
  axes, the sum over (i, j) of x(b, i, j, c) where i = j and of the zero value elsewhere, and columns 64..127 the
  total sum over (i, j) less that diagonal sum. The reference takes each sum in one reduction over both node axes. The
  kernel walks a 2 × 64 grid: 8 batch rows and 8 node rows at a time, it adds to two running sums kept in scratch
  memory (set to zero at the first of a batch block's 64 steps) the 8 rows' masked entries, summed over the columns
  and then over the rows, and the 8 rows' entries, summed over the rows and then over the columns; at the 64th step it
  writes the diagonal sum and the difference into the two halves of the batch block's output rows. The two sides
  differ in the order and grouping of the additions only, and + on the extended reals is commutative and
  associative at every value, the infinities included: no entry has to be finite, and the precondition is not used.

  The modules: DiagSums (the result as a function of x, the sums 8 rows at a time, the 32-bit row number); Steps and
  Carried (what a grid step leaves in the scratch and output buffers, as the step's arithmetic of what it found);
  Updates (that arithmetic read at coordinates); Blocks (which entries of x a grid point sees); Running (the induction
  over the grid points and the result array); RefValue (the reference's operations read at coordinates).
  The ideal pass rewrote nothing in the kernel, so the claim about it is trivial.
-/
import proofs.«113399_j74053826118101_2_alg».proof.Defs
import proofs.«113399_j74053826118101_2_alg».proof.Proof.Gen.Kernel
import proofs.«113399_j74053826118101_2_alg».proof.Proof.Gen.Kernel.Frame
import proofs.«113399_j74053826118101_2_alg».proof.Proof.Gen.KernelIdeal
import proofs.«113399_j74053826118101_2_alg».proof.Proof.Gen.KernelIdeal.Frame
import proofs.«113399_j74053826118101_2_alg».proof.Proof.Gen.KernelIdeal.Value
import proofs.«113399_j74053826118101_2_alg».proof.Proof.Gen.ReferenceIdeal
import proofs.«113399_j74053826118101_2_alg».proof.Proof.Gen.ReferenceIdeal.Run
import proofs.«113399_j74053826118101_2_alg».proof.Proof.Gen.ReferenceIdeal.Read
import proofs.«113399_j74053826118101_2_alg».proof.Proof.Gen.Pre_finite_inputs
import proofs.«113399_j74053826118101_2_alg».proof.Proof.Running
import proofs.«113399_j74053826118101_2_alg».proof.Proof.RefValue

noncomputable section

namespace Cert.Proof

open Idealize.ShloMosaic Idealize.SL.Sem

/-- The kernel as printed runs and leaves its input unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its input unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From inputs that agree, the kernel's result array and the reference's result are both the diagonal-and-total-sum
    result of the input. -/
theorem algebraic : Cert.algebraic_KernelIdeal_ReferenceIdeal := by
  intro m ρ m' ρ' _ hagree
  refine ⟨fun c => Cert.KernelIdeal.Running.resultArr m c, Cert.KernelIdeal.Running.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
